-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 32) (main_arg4 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x2048, .i1⟩
  | .hbm, ⟨5, _⟩ => ⟨S16x2048x2048, .i32⟩
  | .hbm, ⟨6, _⟩ => ⟨S16x2048x64, .f32⟩
  | .hbm, ⟨7, _⟩ => ⟨S16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x2048, .i32⟩
  | .local _ .vmem, ⟨7, _⟩ => ⟨S1x256x2048, .i32⟩
  | .local _ .vmem, ⟨8, _⟩ => ⟨S1x256x2048, .i32⟩
  | .local _ .vmem, ⟨9, _⟩ => ⟨S1x256x2048, .i32⟩
  | .local _ .vmem, ⟨10, _⟩ => ⟨S1x256x64, .f32⟩
  | .local _ .vmem, ⟨11, _⟩ => ⟨S1x256x64, .f32⟩
  | .local _ .vmem, ⟨12, _⟩ => ⟨S1x256x2048, .f32⟩
  | .local _ .vmem, ⟨13, _⟩ => ⟨S1x256x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  natLt_1_32 : 1 < 32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .i32 = 32 ∨ (Rect.block (s := S16x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .i32 = 32 ∨ (Rect.block (s := S16x2048x2048) S1x256x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S16x2048x64.size a
  hwx0_5 : ∀ i : grid0.Coords, EltTy.bits .f32 = 32 ∨ (Rect.block (s := S16x2048x64) S1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S16x2048x2048.size a
  hwx0_6 : ∀ i : grid0.Coords, EltTy.bits .f32 = 32 ∨ (Rect.block (s := S16x2048x2048) S1x256x2048.size (cc0_transform_6 i) (hinb0_6 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x2048, .i1⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .i32⟩
  | .hbm, ⟨14, _⟩ => ⟨S16x2048x2048, .i32⟩
  | .hbm, ⟨15, _⟩ => ⟨S16x2048x2048, .i1⟩
  | .hbm, ⟨16, _⟩ => ⟨S_, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Masked scaled-dot-product attention, one query row at a time, on the extended reals.

  For a query row `q : Fin 64 → EReal`, a key matrix `k : Fin 2048 → Fin 64 → EReal`, a row `keep` of 32-bit words
  (a zero word masks the column with the large finite filler) and a row `drop` of one-bit words (a set bit masks
  the column with -∞):

    score c   = filler               if keep c = 0
              = -∞                   else if drop c = 1
              = (∑ d, q d · k c d) · (1/8)   otherwise
    rowMax    = max over c of score c, from -∞
    weight c  = exp (score c - rowMax)
    rowSum    = ∑ c, weight c
    attn c    = weight c / rowSum
    out d     = ∑ c, attn c · v c d

  Both programs compute exactly this, so nothing here needs the inputs to be finite: the only law used between
  them is that dividing by 8 is multiplying by 1/8 on every extended real, and that a maximum taken from -∞ does not
  change when -∞ is joined to it once more.
-/
import Idealize.ShloMosaic.PureOps.Ideal
import Idealize.ShloMosaic.PureOps.Ideal.Laws
import Idealize.ShloMosaic.Lib.ValueIdx
import Mathlib.Data.Finset.Fold

noncomputable section

namespace Cert.MaskedAttention

open Idealize.ShloMosaic

/-- The pattern of -∞ (both programs spell it), as the extended real it denotes. -/
abbrev negInf : EReal := Ideal.ofBits .f32 0xFF800000#32

/-- The large finite filler -1e32 both programs spell, as the extended real its pattern denotes. -/
abbrev filler : EReal := Ideal.ofBits .f32 0xF49DC5AE#32

/-- The scale 1/8 = 1/√64. -/
abbrev eighth : EReal := ((1 / 8 : ℝ) : EReal)

/-- The masked, scaled score of one query row against key column `c`. -/
def score (q : Fin 64 → EReal) (k : Fin 2048 → Fin 64 → EReal) (keep : Fin 2048 → BitVec 32) (drop : Fin 2048 → BitVec 1)
    (c : Fin 2048) : EReal :=
  Scalar.select (IntOp.cmpi .eq (keep c) 0#32) filler
    (Scalar.select (drop c) negInf ((∑ d : Fin 64, q d * k c d) * eighth))

/-- The row's maximum, taken from -∞. -/
def rowMax (s : Fin 2048 → EReal) : EReal := (Finset.univ : Finset (Fin 2048)).fold max negInf s

/-- The unnormalized softmax weight of column `c`. -/
def weight (s : Fin 2048 → EReal) (c : Fin 2048) : EReal := Ideal.exp (s c - rowMax s)

/-- The row's normalizer. -/
def rowSum (s : Fin 2048 → EReal) : EReal := ∑ c : Fin 2048, weight s c

/-- The softmax of a score row. -/
def softmax (s : Fin 2048 → EReal) (c : Fin 2048) : EReal := Ideal.div (weight s c) (rowSum s)

/-- The attention weights of one query row. -/
def attnRow (q : Fin 64 → EReal) (k : Fin 2048 → Fin 64 → EReal) (keep : Fin 2048 → BitVec 32) (drop : Fin 2048 → BitVec 1) :
    Fin 2048 → EReal := softmax (score q k keep drop)

/-- The attended values of one query row. -/
def outRow (a : Fin 2048 → EReal) (v : Fin 2048 → Fin 64 → EReal) (d : Fin 64) : EReal := ∑ c : Fin 2048, a c * v c d

/-- Joining -∞ once more to a maximum taken from -∞ changes nothing (true of any starting value). -/
theorem max_rowMax (s : Fin 2048 → EReal) : max negInf (rowMax s) = rowMax s :=
  max_eq_right ((Finset.le_fold_max _).mpr (Or.inl le_rfl))

/-- The pattern of 8.0 denotes the real 8. -/
theorem ofBits_eight : Ideal.ofBits .f32 0x41000000#32 = ((8 : ℝ) : EReal) := by
  simp [Ideal.ofBits, Ideal.ieee, -EReal.coe_mul]; norm_num

/-- The pattern of 0.125 denotes the real 1/8. -/
theorem ofBits_eighth : Ideal.ofBits .f32 0x3E000000#32 = eighth := by
  simp [Ideal.ofBits, Ideal.ieee, -EReal.coe_mul]; norm_num

/-- Dividing by the pattern of 8.0 is multiplying by 1/8, at the infinities too. -/
theorem div_eight (x : EReal) : Ideal.div x (Ideal.ofBits .f32 0x41000000#32) = x * eighth := by
  rw [ofBits_eight, Ideal.div_coe (by norm_num : (8 : ℝ) ≠ 0)]

/-- A one-bit word widened to 32 bits is nonzero exactly when the bit is set. -/
theorem ne_zero_of_widened : ∀ b : BitVec 1, IntOp.cmpi .ne (b.setWidth 32) 0#32 = b := by decide

/-! ## The two result arrays, from the argument arrays -/

/-- The shape of the query, key and value arrays, and the shape of the two masks and of the attention array. -/
abbrev QKV : Shape := ⟨3, ![16, 2048, 64]⟩
abbrev ATT : Shape := ⟨3, ![16, 2048, 2048]⟩

open Idealize.ShloMosaic.ValueIdx in
/-- The score row of query `r` of batch `b`: that query's row of `q`, the batch's keys, and the query's rows of the two masks. -/
def scoreRow (q k : QKV.Idx → EReal) (keep : ATT.Idx → BitVec 32) (drop : ATT.Idx → BitVec 1) (b : Fin 16) (r : Fin 2048) :
    Fin 2048 → EReal :=
  score (fun d => q (ix3 b r d)) (fun c d => k (ix3 b c d)) (fun c => keep (ix3 b r c)) (fun c => drop (ix3 b r c))

/-- The attention array: entry `(b, r, c)` is the softmax of query `(b, r)`'s score row at column `c`. -/
def attnArr (q k : QKV.Idx → EReal) (keep : ATT.Idx → BitVec 32) (drop : ATT.Idx → BitVec 1) : ATT.Idx → EReal :=
  fun i => softmax (scoreRow q k keep drop (i 0) (i 1)) (i 2)

open Idealize.ShloMosaic.ValueIdx in
/-- The output array: entry `(b, r, d)` is query `(b, r)`'s attention weights against column `d` of the batch's values. -/
def outArr (q k v : QKV.Idx → EReal) (keep : ATT.Idx → BitVec 32) (drop : ATT.Idx → BitVec 1) : QKV.Idx → EReal :=
  fun i => outRow (softmax (scoreRow q k keep drop (i 0) (i 1))) (fun c d => v (ix3 (i 0) c d)) (i 2)

end Cert.MaskedAttention

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.Softmax.lean ====
/-
  The softmax of a block of score rows, written with lane reductions, read at an entry.

  A block `s` of 256 score rows of 2048 columns is normalized row by row the way a vector unit does it: the
  maximum (and later the sum) along the columns leaves a vector of 256 entries, the vector is cast to a column
  `[256, 1]`, and the column is broadcast back along the columns. Read at entry `(p, c)` every step depends on
  row `p` alone: the broadcast maximum is the maximum of row `p` taken from -∞, the broadcast sum is the sum of
  row `p`, and so the normalized block at `(p, c)` is the softmax of row `p` at column `c`.
-/
import proofs.«148188_j71133248356959_1_alg».proof.Proof.Spec
import proofs.«148188_j71133248356959_1_alg».proof.Proof.LibColumnForms
import Idealize.ShloMosaic.Lib.Pipeline.Value
import Idealize.ShloMosaic.Lib.ValueIdx
import Idealize.ShloMosaic.PureOps.Ideal.Laws

noncomputable section

namespace Cert.MaskedAttention.Block

open Idealize.ShloMosaic Idealize.ShloMosaic.ValueIdx Cert.ColumnForms Cert.MaskedAttention

/-- A block of score rows, the vector of its row reductions, and that vector as a column. -/
abbrev SB : Shape := ⟨2, ![256, 2048]⟩
abbrev SV : Shape := ⟨1, ![256]⟩
abbrev SC : Shape := ⟨2, ![256, 1]⟩

variable (hr : SB.Reduces [1] SV) (hφ : FKind.Formats .f32) (hc : SV.ShapeCasts SC) (hb : SC.Broadcasts SB)

/-- Row `p` with column `c` put back on the reduced axis is entry `(p, c)`. -/
theorem lift_row (p : Fin 256) (c : Fin 2048) : hr.lift (ix1 p) c = ix2 p c :=
  funext fun a => Fin.ext (by match a with | ⟨0, _⟩ => rfl | ⟨1, _⟩ => rfl)

/-- The lane maximum, as a column broadcast back over the block, reads at `(p, c)` the maximum of row `p`. -/
theorem rowMax_bcast (s : FVec Ideal SB .f32) (hacc : (0xFF800000#32 : BitVec 32) = FKind.maximumf.neutral .f32 hφ)
    (p : Fin 256) (c : Fin 2048) :
    broadcastTo SB (shapeCast SC (multiReduction .maximumf [1] SV s 0xFF800000#32 hr hφ hacc) hc) hb (ix2 p c)
      = rowMax (fun c => s (ix2 p c)) := by
  refine (broadcastTo_a1_ab_apply _ hb p c).trans ?_
  refine (shapeCast_a_a1_apply _ hc p 0).trans ?_
  refine (Ideal.multiReduction_maximumf_single s _ hr hφ hacc (ix1 p)).trans ?_
  show Finset.fold max negInf (fun c : Fin 2048 => s (hr.lift (ix1 p) c)) Finset.univ
    = Finset.fold max negInf (fun c : Fin 2048 => s (ix2 p c)) Finset.univ
  exact congrArg (fun f => Finset.fold max negInf f Finset.univ) (funext fun c => congrArg s (lift_row hr p c))

/-- The lane sum, as a column broadcast back over the block, reads at `(p, c)` the sum of row `p`. -/
theorem rowSum_bcast (w : FVec Ideal SB .f32) (hacc : (0x00000000#32 : BitVec 32) = FKind.add.neutral .f32 hφ)
    (p : Fin 256) (c : Fin 2048) :
    broadcastTo SB (shapeCast SC (multiReduction .add [1] SV w 0x00000000#32 hr hφ hacc) hc) hb (ix2 p c)
      = ∑ c : Fin 2048, w (ix2 p c) := by
  refine (broadcastTo_a1_ab_apply _ hb p c).trans ?_
  refine (shapeCast_a_a1_apply _ hc p 0).trans ?_
  refine (Ideal.multiReduction_add_single w _ hr hφ hacc (ix1 p)).trans ?_
  show ∑ c : Fin 2048, w (hr.lift (ix1 p) c) = ∑ c : Fin 2048, w (ix2 p c)
  exact Finset.sum_congr rfl fun c _ => congrArg w (lift_row hr p c)

/-- The unnormalized weights of the block: the exponential of each score less its row's maximum. -/
def weights (s : FVec Ideal SB .f32) (hacc : (0xFF800000#32 : BitVec 32) = FKind.maximumf.neutral .f32 hφ) : FVec Ideal SB .f32 :=
  exp (subf s (broadcastTo SB (shapeCast SC (multiReduction .maximumf [1] SV s 0xFF800000#32 hr hφ hacc) hc) hb))

theorem weights_apply (s : FVec Ideal SB .f32) (hacc : (0xFF800000#32 : BitVec 32) = FKind.maximumf.neutral .f32 hφ)
    (p : Fin 256) (c : Fin 2048) :
    weights hr hφ hc hb s hacc (ix2 p c) = weight (fun c => s (ix2 p c)) c := by
  show Ideal.exp (s (ix2 p c) - broadcastTo SB (shapeCast SC (multiReduction .maximumf [1] SV s 0xFF800000#32 hr hφ hacc) hc) hb (ix2 p c)) = _
  rw [rowMax_bcast hr hφ hc hb s hacc p c]
  rfl

/-- The block normalized row by row: each weight over its row's sum. -/
def normalized (w : FVec Ideal SB .f32) (hacc : (0x00000000#32 : BitVec 32) = FKind.add.neutral .f32 hφ) : FVec Ideal SB .f32 :=
  divf w (broadcastTo SB (shapeCast SC (multiReduction .add [1] SV w 0x00000000#32 hr hφ hacc) hc) hb)

/-- The normalized block at `(p, c)` is the softmax of score row `p` at column `c`. -/
theorem softmax_apply (s : FVec Ideal SB .f32) (hmax : (0xFF800000#32 : BitVec 32) = FKind.maximumf.neutral .f32 hφ)
    (hadd : (0x00000000#32 : BitVec 32) = FKind.add.neutral .f32 hφ) (p : Fin 256) (c : Fin 2048) :
    normalized hr hφ hc hb (weights hr hφ hc hb s hmax) hadd (ix2 p c) = softmax (fun c => s (ix2 p c)) c := by
  show Ideal.div (weights hr hφ hc hb s hmax (ix2 p c))
      (broadcastTo SB (shapeCast SC (multiReduction .add [1] SV (weights hr hφ hc hb s hmax) 0x00000000#32 hr hφ hadd) hc) hb (ix2 p c)) = _
  rw [rowSum_bcast hr hφ hc hb _ hadd p c, weights_apply]
  unfold softmax rowSum
  exact congrArg (Ideal.div _) (Finset.sum_congr rfl fun c' _ => weights_apply hr hφ hc hb s hmax p c')

end Cert.MaskedAttention.Block

end
-- ==== Proof.KernelBlock.lean ====
/-
  What one grid point's body computes, read at an entry of each of its two output blocks.

  The body sees the point's 256 query rows `Q` (a `[1, 256, 64]` block), the batch's 2048 keys `K` and values `V`
  (`[1, 2048, 64]` blocks), and the 256 matching rows of the two masks, both as 32-bit words: `Mw` (a nonzero word masks
  with -∞) and `Dw` (a zero word masks with the finite filler). Row `p` of the attention block is the softmax of the
  masked scores of query row `p` against all the keys, and row `p` of the output block is that softmax row applied to
  the values. The first contraction is a matrix product of the query rows with the TRANSPOSED keys into a zero
  accumulator, so its entry `(p, c)` is the sum over `d` of `Q p d · K c d`; roundings to a narrower format are the
  identity on the extended reals.
-/
import proofs.«148188_j71133248356959_1_alg».proof.Proof.Gen.KernelIdeal.Skeleton
import proofs.«148188_j71133248356959_1_alg».proof.Proof.Spec
import proofs.«148188_j71133248356959_1_alg».proof.Proof.Softmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.MaskedAttention
open Idealize.ShloMosaic Idealize.ShloMosaic.ValueIdx

/-! ### The two contractions' operand indices, by coordinates -/

local notation "Dqk" => dot_S256x64_S64x2048_S256x2048_1_0_0_1_n_n
local notation "Dav" => dot_S256x2048_S2048x64_S256x64_1_0_0_1_n_n

theorem lhs_qk_0 (i : S256x2048.Idx) (q : (Dqk).contr.Idx) : ((Dqk).lhsIdx i q 0).val = (i 0).val := by
  unfold DotDims.lhsIdx
  rw [dif_neg (show ¬(0 : Fin S256x64.rank) ∈ (Dqk).lhsBatch by decide), dif_pos (show (0 : Fin S256x64.rank) ∈ (Dqk).lhsNonContracting by decide)]
  rfl
theorem lhs_qk_1 (i : S256x2048.Idx) (q : (Dqk).contr.Idx) : ((Dqk).lhsIdx i q 1).val = (q ⟨0, by decide⟩).val :=
  (Dqk).lhsIdx_val_of_single rfl i q
theorem rhs_qk_0 (i : S256x2048.Idx) (q : (Dqk).contr.Idx) : ((Dqk).rhsIdx i q 0).val = (q ⟨0, by decide⟩).val :=
  (Dqk).rhsIdx_val_of_single rfl i q
theorem rhs_qk_1 (i : S256x2048.Idx) (q : (Dqk).contr.Idx) : ((Dqk).rhsIdx i q 1).val = (i 1).val := by
  unfold DotDims.rhsIdx
  rw [dif_neg (show ¬(1 : Fin S64x2048.rank) ∈ (Dqk).rhsBatch by decide), dif_pos (show (1 : Fin S64x2048.rank) ∈ (Dqk).rhsNonContracting by decide)]
  rfl

theorem lhs_av_0 (i : S256x64.Idx) (q : (Dav).contr.Idx) : ((Dav).lhsIdx i q 0).val = (i 0).val := by
  unfold DotDims.lhsIdx
  rw [dif_neg (show ¬(0 : Fin S256x2048.rank) ∈ (Dav).lhsBatch by decide), dif_pos (show (0 : Fin S256x2048.rank) ∈ (Dav).lhsNonContracting by decide)]
  rfl
theorem lhs_av_1 (i : S256x64.Idx) (q : (Dav).contr.Idx) : ((Dav).lhsIdx i q 1).val = (q ⟨0, by decide⟩).val :=
  (Dav).lhsIdx_val_of_single rfl i q
theorem rhs_av_0 (i : S256x64.Idx) (q : (Dav).contr.Idx) : ((Dav).rhsIdx i q 0).val = (q ⟨0, by decide⟩).val :=
  (Dav).rhsIdx_val_of_single rfl i q
theorem rhs_av_1 (i : S256x64.Idx) (q : (Dav).contr.Idx) : ((Dav).rhsIdx i q 1).val = (i 1).val := by
  unfold DotDims.rhsIdx
  rw [dif_neg (show ¬(1 : Fin S2048x64.rank) ∈ (Dav).rhsBatch by decide), dif_pos (show (1 : Fin S2048x64.rank) ∈ (Dav).rhsNonContracting by decide)]
  rfl

/-- A product into a zero accumulator of a `[256, 64]` matrix with a `[64, 2048]` one, at `(p, c)`. -/
theorem qk_apply (A : FVec Ideal S256x64 .bf16) (B : FVec Ideal S64x2048 .bf16) (p : Fin 256) (c : Fin 2048) :
    matmul (Dqk) none A B (constant S256x2048 .f32 0x00000000#32) (ix2 p c) = ∑ d : Fin 64, A (ix2 p d) * B (ix2 d c) := by
  refine (Ideal.matmul_constant_zero_apply (Dqk) none A B (ix2 p c)).trans ?_
  rw [← Equiv.sum_comp (contrEquiv1 (Dqk) 64 rfl rfl).symm]
  refine Finset.sum_congr rfl fun k _ => ?_
  have hk := contrEquiv1_symm_val (Dqk) 64 rfl rfl k
  have el : (Dqk).lhsIdx (ix2 p c) ((contrEquiv1 (Dqk) 64 rfl rfl).symm k) = ix2 p k := funext fun a => Fin.ext (by
    match a with
    | ⟨0, _⟩ => exact lhs_qk_0 _ _
    | ⟨1, _⟩ => exact (lhs_qk_1 _ _).trans hk)
  have er : (Dqk).rhsIdx (ix2 p c) ((contrEquiv1 (Dqk) 64 rfl rfl).symm k) = ix2 k c := funext fun a => Fin.ext (by
    match a with
    | ⟨0, _⟩ => exact (rhs_qk_0 _ _).trans hk
    | ⟨1, _⟩ => exact rhs_qk_1 _ _)
  rw [el, er]

/-- A product into a zero accumulator of a `[256, 2048]` matrix with a `[2048, 64]` one, at `(p, d)`. -/
theorem av_apply (A : FVec Ideal S256x2048 .bf16) (B : FVec Ideal S2048x64 .bf16) (p : Fin 256) (d : Fin 64) :
    matmul (Dav) none A B (constant S256x64 .f32 0x00000000#32) (ix2 p d) = ∑ c : Fin 2048, A (ix2 p c) * B (ix2 c d) := by
  refine (Ideal.matmul_constant_zero_apply (Dav) none A B (ix2 p d)).trans ?_
  rw [← Equiv.sum_comp (contrEquiv1 (Dav) 2048 rfl rfl).symm]
  refine Finset.sum_congr rfl fun k _ => ?_
  have hk := contrEquiv1_symm_val (Dav) 2048 rfl rfl k
  have el : (Dav).lhsIdx (ix2 p d) ((contrEquiv1 (Dav) 2048 rfl rfl).symm k) = ix2 p k := funext fun a => Fin.ext (by
    match a with
    | ⟨0, _⟩ => exact lhs_av_0 _ _
    | ⟨1, _⟩ => exact (lhs_av_1 _ _).trans hk)
  have er : (Dav).rhsIdx (ix2 p d) ((contrEquiv1 (Dav) 2048 rfl rfl).symm k) = ix2 k d := funext fun a => Fin.ext (by
    match a with
    | ⟨0, _⟩ => exact (rhs_av_0 _ _).trans hk
    | ⟨1, _⟩ => exact rhs_av_1 _ _)
  rw [el, er]

/-! ### The masked scores of the block -/

variable (Q : Vec Ideal S1x256x64 .f32) (K V : Vec Ideal S1x2048x64 .f32) (Mw Dw : Vec Ideal S1x256x2048 .i32)

/-- The block's masked, scaled scores, as the body spells them. -/
def maskedScores : FVec Ideal S256x2048 .f32 :=
  select (cmpi .eq (shapeCast S256x2048 Dw shapeCasts_S1x256x2048_S256x2048 : IVec S256x2048 32) (broadcast S256x2048 0#32))
    (broadcast S256x2048 (Scalar.ofBits .f32 0xF49DC5AE#32))
    (select (cmpi .ne (shapeCast S256x2048 Mw shapeCasts_S1x256x2048_S256x2048 : IVec S256x2048 32) (constantI S256x2048 32 0#32))
      (broadcast S256x2048 (Scalar.ofBits .f32 0xFF800000#32))
      (mulf (matmul (Dqk) none (truncf .bf16 (shapeCast S256x64 Q shapeCasts_S1x256x64_S256x64) bitsLt_bf16_f32)
          (transpose S64x2048 [1, 0] (truncf .bf16 (shapeCast S2048x64 K shapeCasts_S1x2048x64_S2048x64) bitsLt_bf16_f32)
            transposes_S2048x64_p1_0_S64x2048)
          (constant S256x2048 .f32 0x00000000#32))
        (broadcast S256x2048 (Scalar.ofBits .f32 0x3E000000#32))))

/-- Query row `p`'s score row, from the blocks. -/
def blockScoreRow (p : Fin 256) : Fin 2048 → EReal :=
  score (fun d => Q (ix3 (0 : Fin 1) p d)) (fun c d => K (ix3 (0 : Fin 1) c d)) (fun c => Dw (ix3 (0 : Fin 1) p c))
    (fun c => IntOp.cmpi .ne (Mw (ix3 (0 : Fin 1) p c)) 0#32)

theorem maskedScores_apply (p : Fin 256) (c : Fin 2048) :
    maskedScores Q K Mw Dw (ix2 p c) = blockScoreRow Q K Mw Dw p c := by
  have hqk := qk_apply (truncf .bf16 (shapeCast S256x64 Q shapeCasts_S1x256x64_S256x64) bitsLt_bf16_f32)
    (transpose S64x2048 [1, 0] (truncf .bf16 (shapeCast S2048x64 K shapeCasts_S1x2048x64_S2048x64) bitsLt_bf16_f32)
      transposes_S2048x64_p1_0_S64x2048) p c
  have hq : ∀ d : Fin 64, (truncf .bf16 (shapeCast S256x64 Q shapeCasts_S1x256x64_S256x64) bitsLt_bf16_f32 : FVec Ideal S256x64 .bf16) (ix2 p d)
      = Q (ix3 (0 : Fin 1) p d) := fun d => shapeCast_1ab_ab_apply Q shapeCasts_S1x256x64_S256x64 p d
  have hk : ∀ d : Fin 64, (transpose S64x2048 [1, 0] (truncf .bf16 (shapeCast S2048x64 K shapeCasts_S1x2048x64_S2048x64) bitsLt_bf16_f32 : FVec Ideal S2048x64 .bf16)
      transposes_S2048x64_p1_0_S64x2048) (ix2 d c) = K (ix3 (0 : Fin 1) c d) := fun d =>
    (transpose_ix2_apply _ transposes_S2048x64_p1_0_S64x2048 d c).trans (shapeCast_1ab_ab_apply K shapeCasts_S1x2048x64_S2048x64 c d)
  have hD : (shapeCast S256x2048 Dw shapeCasts_S1x256x2048_S256x2048 : IVec S256x2048 32) (ix2 p c) = Dw (ix3 (0 : Fin 1) p c) :=
    shapeCast_1ab_ab_apply Dw shapeCasts_S1x256x2048_S256x2048 p c
  have hM : (shapeCast S256x2048 Mw shapeCasts_S1x256x2048_S256x2048 : IVec S256x2048 32) (ix2 p c) = Mw (ix3 (0 : Fin 1) p c) :=
    shapeCast_1ab_ab_apply Mw shapeCasts_S1x256x2048_S256x2048 p c
  show Scalar.select (IntOp.cmpi .eq ((shapeCast S256x2048 Dw shapeCasts_S1x256x2048_S256x2048 : IVec S256x2048 32) (ix2 p c)) 0#32) filler
      (Scalar.select (IntOp.cmpi .ne ((shapeCast S256x2048 Mw shapeCasts_S1x256x2048_S256x2048 : IVec S256x2048 32) (ix2 p c)) 0#32) negInf
        (matmul (F := Ideal) (Dqk) none (truncf .bf16 (shapeCast S256x64 Q shapeCasts_S1x256x64_S256x64) bitsLt_bf16_f32)
          (transpose S64x2048 [1, 0] (truncf .bf16 (shapeCast S2048x64 K shapeCasts_S1x2048x64_S2048x64) bitsLt_bf16_f32)
            transposes_S2048x64_p1_0_S64x2048) (constant S256x2048 .f32 0x00000000#32) (ix2 p c) * Ideal.ofBits .f32 0x3E000000#32)) = _
  rw [hD, hM, hqk, ofBits_eighth]
  unfold blockScoreRow score
  simp only [hq, hk]

/-! ### The attention block -/

/-- The attention payload is the row-wise softmax of the masked scores. -/
theorem pay4_eq : k0_pay4 Q K Mw Dw
    = Block.normalized reduces_S256x2048_S256 (.inl rfl) shapeCasts_S256_S256x1 broadcasts_S256x1_S256x2048
        (Block.weights reduces_S256x2048_S256 (.inl rfl) shapeCasts_S256_S256x1 broadcasts_S256x1_S256x2048 (maskedScores Q K Mw Dw) rfl) rfl := rfl

/-- Entry `(p, c)` of the attention payload: the softmax of query row `p`'s scores at column `c`. -/
theorem pay4_apply (p : Fin 256) (c : Fin 2048) :
    k0_pay4 Q K Mw Dw (ix2 p c) = softmax (blockScoreRow Q K Mw Dw p) c := by
  rw [pay4_eq]
  refine (Block.softmax_apply _ _ _ _ (maskedScores Q K Mw Dw) rfl rfl p c).trans ?_
  exact congrArg (fun s => softmax s c) (funext fun c' => maskedScores_apply Q K Mw Dw p c')

/-- The attention block as stored, at `(u, p, c)`. -/
theorem pay1_apply (u : Fin 1) (p : Fin 256) (c : Fin 2048) :
    k0_pay1 (k0_pay4 Q K Mw Dw) (ix3 u p c) = softmax (blockScoreRow Q K Mw Dw p) c :=
  (shapeCast_ab_1ab_apply (k0_pay4 Q K Mw Dw) shapeCasts_S256x2048_S1x256x2048 u p c).trans (pay4_apply Q K Mw Dw p c)

/-! ### The output block -/

/-- The output block as stored, at `(u, p, d)`: the softmax row applied to the values. -/
theorem pay2_apply (u : Fin 1) (p : Fin 256) (d : Fin 64) :
    k0_pay2 (k0_pay3 V) (k0_pay4 Q K Mw Dw) (ix3 u p d)
      = outRow (softmax (blockScoreRow Q K Mw Dw p)) (fun c d => V (ix3 (0 : Fin 1) c d)) d := by
  show shapeCast S1x256x64 (matmul (F := Ideal) (Dav) none (truncf .bf16 (k0_pay4 Q K Mw Dw) bitsLt_bf16_f32) (k0_pay3 V)
      (constant S256x64 .f32 0x00000000#32)) shapeCasts_S256x64_S1x256x64 (ix3 u p d) = _
  refine (shapeCast_ab_1ab_apply _ shapeCasts_S256x64_S1x256x64 u p d).trans ?_
  refine (av_apply (truncf .bf16 (k0_pay4 Q K Mw Dw) bitsLt_bf16_f32) (k0_pay3 V) p d).trans ?_
  unfold outRow
  refine Finset.sum_congr rfl fun c _ => ?_
  show k0_pay4 Q K Mw Dw (ix2 p c) * (shapeCast S2048x64 V shapeCasts_S1x2048x64_S2048x64) (ix2 c d) = _
  rw [pay4_apply, shapeCast_1ab_ab_apply]

end Cert.KernelIdeal.Block

end
-- ==== Proof.KernelArrays.lean ====
/-
  From the grid points' blocks to the two result arrays.

  Grid point `t = (b, i)` handles batch `b` and the 256 query rows `256·i … 256·i + 255`: its query, mask and output
  windows all sit at block `(b, i, 0)` of their arrays, its key and value windows at block `(b, 0, 0)`. So an element
  `(u, p, ·)` of a block at point `t` is element `(b, 256·i + p, ·)` of the array, what the body leaves in the two
  output blocks is the row-wise attention of the specification read through the block, and since the 128 points'
  blocks tile each output array, each array ends as the specification's whole-array function.

  The one host operation in front of the kernel widens the one-bit mask to 32-bit words; the body tests those words
  against zero, which gives the bit back.
-/
import proofs.«148188_j71133248356959_1_alg».proof.Proof.Gen.KernelIdeal.Value
import proofs.«148188_j71133248356959_1_alg».proof.Proof.KernelBlock
import proofs.«148188_j71133248356959_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Arrays

open Cert.KernelIdeal Cert.KernelIdeal.Gen Cert.KernelIdeal.Value Cert.KernelIdeal.Block Cert.MaskedAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ### What the body leaves in the two output blocks, over the input blocks as variables -/

/-- The attention block at `y = (u, p, c)`: the softmax of query row `p`'s scores at column `c`. -/
theorem attnBlock_apply (x0 : Vec Ideal S1x256x64 .f32) (x1 x2 : Vec Ideal S1x2048x64 .f32) (x3 x4 : Vec Ideal S1x256x2048 .i32)
    (y : S1x256x2048.Idx) :
    out0_6 x0 x1 x2 x3 x4 y = softmax (blockScoreRow x0 x1 x3 x4 (y 1)) (y 2) := by
  unfold out0_6
  rw [View.canon_unit_zero hz3]
  simp only [View.ld_unit_zero (S := S1x256x64) hz3, View.ld_unit_zero (S := S1x2048x64) hz3, View.ld_unit_zero (S := S1x256x2048) hz3]
  obtain ⟨u, p, c, rfl⟩ : ∃ (u : Fin 1) (p : Fin 256) (c : Fin 2048), y = ix3 u p c := ⟨y 0, y 1, y 2, eq_ix3 y⟩
  exact pay1_apply x0 x1 x3 x4 u p c

/-- The output block at `y = (u, p, d)`: that softmax row applied to column `d` of the values. -/
theorem outBlock_apply (x0 : Vec Ideal S1x256x64 .f32) (x1 x2 : Vec Ideal S1x2048x64 .f32) (x3 x4 : Vec Ideal S1x256x2048 .i32)
    (y : S1x256x64.Idx) :
    out0_5 x0 x1 x2 x3 x4 y
      = outRow (softmax (blockScoreRow x0 x1 x3 x4 (y 1))) (fun c d => x2 (ix3 (0 : Fin 1) c d)) (y 2) := by
  unfold out0_5
  rw [View.canon_unit_zero hz3]
  simp only [View.ld_unit_zero (S := S1x256x64) hz3, View.ld_unit_zero (S := S1x2048x64) hz3, View.ld_unit_zero (S := S1x256x2048) hz3]
  obtain ⟨u, p, d, rfl⟩ : ∃ (u : Fin 1) (p : Fin 256) (d : Fin 64), y = ix3 u p d := ⟨y 0, y 1, y 2, eq_ix3 y⟩
  exact pay2_apply x0 x1 x2 x3 x4 u p d

/-! ### The windows' block indices over the grid -/

/-- Decided over the 128 points: the query, both mask and both output windows move together, the key and value
    windows follow the batch only, and the block indices stay in range. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = win0_6.index t (1 : Fin 3) ∧ win0_5.index t (2 : Fin 3) = 0
    ∧ win0_6.index t (2 : Fin 3) = 0 ∧ win0_6.index t (0 : Fin 3) < 16 ∧ win0_6.index t (1 : Fin 3) < 8 :=
  (by decide +kernel : ∀ t : Fin grid0.N, _)

/-- Every block `(b, i, 0)` of the output arrays is some point's. -/
theorem idx_onto : ∀ (b : Fin 16) (i : Fin 8), ∃ t : Fin cfg0.N, win0_6.index t = ![b.val, i.val, 0] ∧ win0_5.index t = ![b.val, i.val, 0] :=
  (by decide +kernel : ∀ (b : Fin 16) (i : Fin 8), ∃ t : Fin grid0.N, win0_6.index t = ![b.val, i.val, 0] ∧ win0_5.index t = ![b.val, i.val, 0])

/-! ### Each input block read as elements of its array -/

theorem qBlock_apply (c : Dev nD) (t : Fin cfg0.N) (x : S1x256x64.Idx) (k : S16x2048x64.Idx)
    (h0 : win0_0.index t (0 : Fin 3) * 1 + 1 * (x 0).val = (k 0).val) (h1 : win0_0.index t (1 : Fin 3) * 256 + 1 * (x 1).val = (k 1).val)
    (h2 : win0_0.index t (2 : Fin 3) * 64 + 1 * (x 2).val = (k 2).val) :
    (iblk m c 0 t : Vec Ideal S1x256x64 .f32) x = V m c main_arg0 k := by
  unfold iblk
  rw [View.read_apply]
  show V m c main_arg0 _ = V m c main_arg0 k
  refine congrArg (V m c main_arg0) (funext fun a => Fin.ext ?_)
  match a with
  | ⟨0, _⟩ => exact h0
  | ⟨1, _⟩ => exact h1
  | ⟨2, _⟩ => exact h2

theorem kBlock_apply (c : Dev nD) (t : Fin cfg0.N) (x : S1x2048x64.Idx) (k : S16x2048x64.Idx)
    (h0 : win0_1.index t (0 : Fin 3) * 1 + 1 * (x 0).val = (k 0).val) (h1 : win0_1.index t (1 : Fin 3) * 2048 + 1 * (x 1).val = (k 1).val)
    (h2 : win0_1.index t (2 : Fin 3) * 64 + 1 * (x 2).val = (k 2).val) :
    (iblk m c 1 t : Vec Ideal S1x2048x64 .f32) x = V m c main_arg1 k := by
  unfold iblk
  rw [View.read_apply]
  show V m c main_arg1 _ = V m c main_arg1 k
  refine congrArg (V m c main_arg1) (funext fun a => Fin.ext ?_)
  match a with
  | ⟨0, _⟩ => exact h0
  | ⟨1, _⟩ => exact h1
  | ⟨2, _⟩ => exact h2

theorem vBlock_apply (c : Dev nD) (t : Fin cfg0.N) (x : S1x2048x64.Idx) (k : S16x2048x64.Idx)
    (h0 : win0_2.index t (0 : Fin 3) * 1 + 1 * (x 0).val = (k 0).val) (h1 : win0_2.index t (1 : Fin 3) * 2048 + 1 * (x 1).val = (k 1).val)
    (h2 : win0_2.index t (2 : Fin 3) * 64 + 1 * (x 2).val = (k 2).val) :
    (iblk m c 2 t : Vec Ideal S1x2048x64 .f32) x = V m c main_arg2 k := by
  unfold iblk
  rw [View.read_apply]
  show V m c main_arg2 _ = V m c main_arg2 k
  refine congrArg (V m c main_arg2) (funext fun a => Fin.ext ?_)
  match a with
  | ⟨0, _⟩ => exact h0
  | ⟨1, _⟩ => exact h1
  | ⟨2, _⟩ => exact h2

theorem maskBlock_apply (c : Dev nD) (t : Fin cfg0.N) (x : S1x256x2048.Idx) (k : S16x2048x2048.Idx)
    (h0 : win0_3.index t (0 : Fin 3) * 1 + 1 * (x 0).val = (k 0).val) (h1 : win0_3.index t (1 : Fin 3) * 256 + 1 * (x 1).val = (k 1).val)
    (h2 : win0_3.index t (2 : Fin 3) * 2048 + 1 * (x 2).val = (k 2).val) :
    (iblk m c 3 t : Vec Ideal S1x256x2048 .i32) x = V m c main_v0 k := by
  unfold iblk
  rw [View.read_apply]
  show V m c main_v0 _ = V m c main_v0 k
  refine congrArg (V m c main_v0) (funext fun a => Fin.ext ?_)
  match a with
  | ⟨0, _⟩ => exact h0
  | ⟨1, _⟩ => exact h1
  | ⟨2, _⟩ => exact h2

theorem diagBlock_apply (c : Dev nD) (t : Fin cfg0.N) (x : S1x256x2048.Idx) (k : S16x2048x2048.Idx)
    (h0 : win0_4.index t (0 : Fin 3) * 1 + 1 * (x 0).val = (k 0).val) (h1 : win0_4.index t (1 : Fin 3) * 256 + 1 * (x 1).val = (k 1).val)
    (h2 : win0_4.index t (2 : Fin 3) * 2048 + 1 * (x 2).val = (k 2).val) :
    (iblk m c 4 t : Vec Ideal S1x256x2048 .i32) x = V m c main_arg3 k := by
  unfold iblk
  rw [View.read_apply]
  show V m c main_arg3 _ = V m c main_arg3 k
  refine congrArg (V m c main_arg3) (funext fun a => Fin.ext ?_)
  match a with
  | ⟨0, _⟩ => exact h0
  | ⟨1, _⟩ => exact h1
  | ⟨2, _⟩ => exact h2

/-- The array the mask window reads is the one-bit mask widened to 32-bit words by the host. -/
theorem V_mask (c : Dev nD) :
    (V m c main_v0 : S16x2048x2048.Idx → BitVec 32) = extui 32 (m ((c : Thread nD τ).loc main_arg4)) natLt_1_32 := by
  dsimp only [Gen.V, Gen.hostOps0]
  after_results

/-- Testing a widened mask word against zero gives the bit back. -/
theorem maskBit (c : Dev nD) (k : S16x2048x2048.Idx) :
    IntOp.cmpi .ne ((V m c main_v0 : S16x2048x2048.Idx → BitVec 32) k) 0#32 = (m ((c : Thread nD τ).loc main_arg4) : S16x2048x2048.Idx → BitVec 1) k := by
  rw [V_mask]
  exact ne_zero_of_widened _

/-! ### A point's score rows are the array's -/

/-- The score row of block row `p` at point `t` is the score row of query `(b, 256·i + p)`, for any array index `j`
    with those first two coordinates. -/
theorem scoreRow_block (c : Dev nD) (t : Fin cfg0.N) (p : Fin 256) (b : Fin 16) (r : Fin 2048)
    (hb : win0_6.index t (0 : Fin 3) = b.val) (hr : win0_6.index t (1 : Fin 3) * 256 + p.val = r.val) :
    blockScoreRow (iblk m c 0 t) (iblk m c 1 t) (iblk m c 3 t) (iblk m c 4 t) p
      = scoreRow (V m c main_arg0) (V m c main_arg1) (V m c main_arg3) (m ((c : Thread nD τ).loc main_arg4)) b r := by
  obtain ⟨e00, e01, e02, e10, e11, e12, e20, e21, e22, e30, e31, e32, e40, e41, e42, e50, e51, e52, e62, l0, l1⟩ := idx_facts t
  unfold blockScoreRow scoreRow
  refine congr (congr (congr (congrArg score ?_) ?_) ?_) ?_
  · funext d
    exact qBlock_apply m c t _ _ (by show win0_0.index t (0 : Fin 3) * 1 + 1 * 0 = b.val; omega)
      (by show win0_0.index t (1 : Fin 3) * 256 + 1 * p.val = r.val; omega)
      (by show win0_0.index t (2 : Fin 3) * 64 + 1 * d.val = d.val; omega)
  · funext c' d
    exact kBlock_apply m c t _ _ (by show win0_1.index t (0 : Fin 3) * 1 + 1 * 0 = b.val; omega)
      (by show win0_1.index t (1 : Fin 3) * 2048 + 1 * c'.val = c'.val; omega)
      (by show win0_1.index t (2 : Fin 3) * 64 + 1 * d.val = d.val; omega)
  · funext c'
    exact diagBlock_apply m c t _ _ (by show win0_4.index t (0 : Fin 3) * 1 + 1 * 0 = b.val; omega)
      (by show win0_4.index t (1 : Fin 3) * 256 + 1 * p.val = r.val; omega)
      (by show win0_4.index t (2 : Fin 3) * 2048 + 1 * c'.val = c'.val; omega)
  · funext c'
    rw [maskBlock_apply m c t _ (ix3 b r c') (by show win0_3.index t (0 : Fin 3) * 1 + 1 * 0 = b.val; omega)
      (by show win0_3.index t (1 : Fin 3) * 256 + 1 * p.val = r.val; omega)
      (by show win0_3.index t (2 : Fin 3) * 2048 + 1 * c'.val = c'.val; omega)]
    exact maskBit m c _

/-! ### The attention array -/

/-- The attention array as the region's input arrays determine it. -/
abbrev attnOf (c : Dev nD) : S16x2048x2048.Idx → EReal :=
  attnArr (V m c main_arg0) (V m c main_arg1) (V m c main_arg3) (m ((c : Thread nD τ).loc main_arg4))

/-- What point `t` writes back to the attention array is block `t` of `attnOf`. -/
theorem flushed6_eq (c : Dev nD) (t : Fin cfg0.N) :
    (dats m 0 c).flushed 6 t = ((cfg0.win 6).blk t).view.read (Elt Ideal) (attnOf m c) := by
  rw [Value.flushed6]
  obtain ⟨e00, e01, e02, e10, e11, e12, e20, e21, e22, e30, e31, e32, e40, e41, e42, e50, e51, e52, e62, l0, l1⟩ := idx_facts t
  funext y
  have hy0 : (y 0).val < 1 := (y 0).isLt
  have hy1 : (y 1).val < 256 := (y 1).isLt
  have hy2 : (y 2).val < 2048 := (y 2).isLt
  show out0_6 (iblk m c 0 t) (iblk m c 1 t) (iblk m c 2 t) (iblk m c 3 t) (iblk m c 4 t) y
    = attnOf m c (((cfg0.win 6).blk t).view.emb y)
  refine (attnBlock_apply (iblk m c 0 t) (iblk m c 1 t) (iblk m c 2 t) (iblk m c 3 t) (iblk m c 4 t) y).trans ?_
  have hi0 : ((((cfg0.win 6).blk t).view.emb y) 0).val = win0_6.index t (0 : Fin 3) * 1 + 1 * (y 0).val := rfl
  have hi1 : ((((cfg0.win 6).blk t).view.emb y) 1).val = win0_6.index t (1 : Fin 3) * 256 + 1 * (y 1).val := rfl
  have hi2 : ((((cfg0.win 6).blk t).view.emb y) 2).val = win0_6.index t (2 : Fin 3) * 2048 + 1 * (y 2).val := rfl
  unfold attnOf attnArr
  refine congr (congrArg softmax (scoreRow_block m c t (y 1) _ _ (by rw [hi0]; omega) (by rw [hi1]; omega))) (Fin.ext ?_)
  rw [hi2]; omega

theorem mem_blk6 (t : Fin cfg0.N) (i : S16x2048x2048.Idx) :
    i ∈ ((cfg0.win 6).blk t).view.set ↔ ∀ a : Fin 3, win0_6.index t a * S1x256x2048.size a ≤ (i a).val
      ∧ (i a).val < win0_6.index t a * S1x256x2048.size a + S1x256x2048.size a := by
  show i ∈ ((View.whole main_v1_1).slice (win0_6.rect t)).set ↔ _
  rw [View.set_slice_whole, Rect.mem_set_unit]
  exact Iff.rfl

/-- Every entry of the attention array lies in some point's block: entry `(b, r, c)` in the block of point `(b, r / 256)`. -/
theorem cover6 (i : S16x2048x2048.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 2048 := (i 2).isLt
  obtain ⟨t, ht, -⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 2048 ≤ (i 2).val ∧ (i 2).val < win0_6.index t (2 : Fin 3) * 2048 + 2048; omega

/-- The attention array after the run. -/
theorem final6 (c : Dev nD) : (dats m 0 c).arrAt 6 cfg0.N = attnOf m c :=
  (dats m 0 c).arrAt_eq_of_cover 6 (attnOf m c) (fun t _ => flushed6_eq m c t) cover6

/-! ### The output array -/

/-- The output array as the region's input arrays determine it. -/
abbrev outOf (c : Dev nD) : S16x2048x64.Idx → EReal :=
  outArr (V m c main_arg0) (V m c main_arg1) (V m c main_arg2) (V m c main_arg3) (m ((c : Thread nD τ).loc main_arg4))

/-- What point `t` writes back to the output array is block `t` of `outOf`. -/
theorem flushed5_eq (c : Dev nD) (t : Fin cfg0.N) :
    (dats m 0 c).flushed 5 t = ((cfg0.win 5).blk t).view.read (Elt Ideal) (outOf m c) := by
  rw [Value.flushed5]
  obtain ⟨e00, e01, e02, e10, e11, e12, e20, e21, e22, e30, e31, e32, e40, e41, e42, e50, e51, e52, e62, l0, l1⟩ := idx_facts t
  funext y
  have hy0 : (y 0).val < 1 := (y 0).isLt
  have hy1 : (y 1).val < 256 := (y 1).isLt
  have hy2 : (y 2).val < 64 := (y 2).isLt
  show out0_5 (iblk m c 0 t) (iblk m c 1 t) (iblk m c 2 t) (iblk m c 3 t) (iblk m c 4 t) y
    = outOf m c (((cfg0.win 5).blk t).view.emb y)
  refine (outBlock_apply (iblk m c 0 t) (iblk m c 1 t) (iblk m c 2 t) (iblk m c 3 t) (iblk m c 4 t) y).trans ?_
  have hi0 : ((((cfg0.win 5).blk t).view.emb y) 0).val = win0_5.index t (0 : Fin 3) * 1 + 1 * (y 0).val := rfl
  have hi1 : ((((cfg0.win 5).blk t).view.emb y) 1).val = win0_5.index t (1 : Fin 3) * 256 + 1 * (y 1).val := rfl
  have hi2 : ((((cfg0.win 5).blk t).view.emb y) 2).val = win0_5.index t (2 : Fin 3) * 64 + 1 * (y 2).val := rfl
  unfold outOf outArr
  refine congr (congr (congrArg outRow (congrArg softmax (scoreRow_block m c t (y 1) _ _ (by rw [hi0]; omega) (by rw [hi1]; omega)))) ?_) (Fin.ext ?_)
  · funext c' d
    exact vBlock_apply m c t _ _ (by show win0_2.index t (0 : Fin 3) * 1 + 1 * 0 = _; rw [hi0]; omega)
      (by show win0_2.index t (1 : Fin 3) * 2048 + 1 * c'.val = c'.val; omega)
      (by show win0_2.index t (2 : Fin 3) * 64 + 1 * d.val = d.val; omega)
  · rw [hi2]; omega

theorem mem_blk5 (t : Fin cfg0.N) (i : S16x2048x64.Idx) :
    i ∈ ((cfg0.win 5).blk t).view.set ↔ ∀ a : Fin 3, win0_5.index t a * S1x256x64.size a ≤ (i a).val
      ∧ (i a).val < win0_5.index t a * S1x256x64.size a + S1x256x64.size a := by
  show i ∈ ((View.whole main_v1_0).slice (win0_5.rect t)).set ↔ _
  rw [View.set_slice_whole, Rect.mem_set_unit]
  exact Iff.rfl

/-- Every entry of the output array lies in some point's block. -/
theorem cover5 (i : S16x2048x64.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 64 := (i 2).isLt
  obtain ⟨t, -, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- The output array after the run. -/
theorem final5 (c : Dev nD) : (dats m 0 c).arrAt 5 cfg0.N = outOf m c :=
  (dats m 0 c).arrAt_eq_of_cover 5 (outOf m c) (fun t _ => flushed5_eq m c t) cover5

/-! ### The run, read -/

/-- The kernel's run: both result arrays at the specification's functions of the arguments as launched, the
    arguments unchanged. -/
theorem run : θ_run defs (onTc (τ := τ) (main (F := Ideal))) ⟨m, fun _ => 0, ρ⟩ fun r => ∀ c : Dev nD,
      r.2.mem ((c : Thread nD τ).loc main_v1_0)
        = outArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v1_1)
        = attnArr (m ((c : Thread nD τ).loc main_arg0)) (m ((c : Thread nD τ).loc main_arg1))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final5 m c).trans (by
        unfold outOf; rw [V_main_arg0, V_main_arg1, V_main_arg2, V_main_arg3])),
      (h c).2.1.trans ((final6 m c).trans (by
        unfold attnOf; rw [V_main_arg0, V_main_arg1, V_main_arg3])),
      (h c).2.2⟩)
    (Value.run_blocks m ρ)

end Cert.KernelIdeal.Arrays

end
-- ==== Proof.RefSide.lean ====
/-
  The reference program, stage by stage, is the row-wise attention of the specification.

  Read at an entry `(b, r, c)`, the reference's masked score is the specification's score of query `(b, r)`
  against key column `c` (its quotient by 8 is the product with 1/8); its maximum over the columns, joined once
  more with -∞, is the row's maximum; its exponentials, their sum from zero, and the quotient are the row's weights,
  normalizer and softmax; and its second contraction is the weighted sum of the batch's value rows.
-/
import proofs.«148188_j71133248356959_1_alg».proof.Proof.Gen.ReferenceIdeal.Read
import proofs.«148188_j71133248356959_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.MaskedAttention
open Idealize.ShloMosaic Idealize.ShloMosaic.ValueIdx

variable (x0 x1 x2 : (⟨S16x2048x64, .f32⟩ : BufTy).Contents (Elt Ideal))
  (x3 : (⟨S16x2048x2048, .i32⟩ : BufTy).Contents (Elt Ideal)) (x4 : (⟨S16x2048x2048, .i1⟩ : BufTy).Contents (Elt Ideal))

/-! ### The index maps of the two contractions and of the reductions, by coordinates -/

theorem lidx_v0 (b : Fin 16) (r c : Fin 2048) (k : Fin 64) : lidx_main_v0 (ix3 b r c) k = ix3 b r k :=
  funext fun a => Fin.ext (by match a with | ⟨0, _⟩ => rfl | ⟨1, _⟩ => rfl | ⟨2, _⟩ => rfl)
theorem ridx_v0 (b : Fin 16) (r c : Fin 2048) (k : Fin 64) : ridx_main_v0 (ix3 b r c) k = ix3 b c k :=
  funext fun a => Fin.ext (by match a with | ⟨0, _⟩ => rfl | ⟨1, _⟩ => rfl | ⟨2, _⟩ => rfl)
theorem lidx_v18 (b : Fin 16) (r : Fin 2048) (d : Fin 64) (k : Fin 2048) : lidx_main_v18 (ix3 b r d) k = ix3 b r k :=
  funext fun a => Fin.ext (by match a with | ⟨0, _⟩ => rfl | ⟨1, _⟩ => rfl | ⟨2, _⟩ => rfl)
theorem ridx_v18 (b : Fin 16) (r : Fin 2048) (d : Fin 64) (k : Fin 2048) : ridx_main_v18 (ix3 b r d) k = ix3 b k d :=
  funext fun a => Fin.ext (by match a with | ⟨0, _⟩ => rfl | ⟨1, _⟩ => rfl | ⟨2, _⟩ => rfl)
theorem idx_v14 (b : Fin 16) (r : Fin 2048) (k : Fin 2048) : idx_main_v14 (ix2 b r) k = ix3 b r k :=
  funext fun a => Fin.ext (by match a with | ⟨0, _⟩ => rfl | ⟨1, _⟩ => rfl | ⟨2, _⟩ => rfl)
theorem idx_v11 (b : Fin 16) (r c : Fin 2048) : idx_main_v10 (idx_main_v11 (ix3 b r c)) = ix2 b r :=
  funext fun a => Fin.ext (by match a with | ⟨0, _⟩ => rfl | ⟨1, _⟩ => rfl)
theorem idx_v16 (b : Fin 16) (r c : Fin 2048) : idx_main_v15 (idx_main_v16 (ix3 b r c)) = ix2 b r :=
  funext fun a => Fin.ext (by match a with | ⟨0, _⟩ => rfl | ⟨1, _⟩ => rfl)

/-- The reduction over the last axis, as the library's one-axis form wants it. -/
theorem reduces_last : S16x2048x2048.Reduces [2] S16x2048 := by decide

theorem lift_last (b : Fin 16) (r c : Fin 2048) : reduces_last.lift (ix2 b r) c = ix3 b r c :=
  funext fun a => Fin.ext (by match a with | ⟨0, _⟩ => rfl | ⟨1, _⟩ => rfl | ⟨2, _⟩ => rfl)

/-! ### The stages -/

/-- The masked score at `(b, r, c)`. -/
theorem score_at (b : Fin 16) (r c : Fin 2048) :
    val_main_v6 (F := Ideal) x0 x1 x3 x4 (ix3 b r c) = scoreRow x0 x1 x3 x4 b r c := by
  rw [val_main_v6_apply, val_main_v5_apply, val_main_v4_apply, val_main_c_apply, val_main_call1_v1_apply,
    val_main_call1_v0_apply, val_main_cst_1_apply, val_main_v3_apply, val_main_call0_v1_apply, val_main_call0_v0_apply,
    val_main_cst_0_apply, val_main_v2_apply, val_main_v0_apply, val_main_v1_apply, val_main_cst_apply]
  simp only [lidx_v0, ridx_v0, Ideal.hostDivf_def, Ideal.ofBits_def, div_eight]
  rfl

/-- The maximum over the columns, from -∞. -/
theorem max_at (b : Fin 16) (r : Fin 2048) :
    val_main_v7 (F := Ideal) x0 x1 x3 x4 (ix2 b r) = rowMax (scoreRow x0 x1 x3 x4 b r) := by
  unfold val_main_v7
  have h := Host.reduce_eq_fold_single (FloatOps.maximumf (F := Ideal) (φ := .f32)) (val_main_v6 (F := Ideal) x0 x1 x3 x4) (val_main_cst_2 (F := Ideal))
    reducesTo_S16x2048x2048_S16x2048_d2 reduces_last h_S_ (ix2 b r)
  refine h.trans ?_
  show Finset.fold max negInf (fun c : Fin 2048 => val_main_v6 (F := Ideal) x0 x1 x3 x4 (reduces_last.lift (ix2 b r) c)) Finset.univ
    = Finset.fold max negInf (scoreRow x0 x1 x3 x4 b r) Finset.univ
  exact congrArg (fun f => Finset.fold max negInf f Finset.univ)
    (funext fun c => (congrArg _ (lift_last b r c)).trans (score_at x0 x1 x3 x4 b r c))

/-- Joined once more with -∞ it is the same maximum. -/
theorem max'_at (b : Fin 16) (r : Fin 2048) :
    val_main_v9 (F := Ideal) x0 x1 x3 x4 (ix2 b r) = rowMax (scoreRow x0 x1 x3 x4 b r) := by
  rw [val_main_v9_apply, val_main_v8_apply, val_main_cst_3_apply, max_at]
  exact max_rowMax _

/-- The unnormalized weight at `(b, r, c)`. -/
theorem weight_at (b : Fin 16) (r c : Fin 2048) :
    val_main_v13 (F := Ideal) x0 x1 x3 x4 (ix3 b r c) = weight (scoreRow x0 x1 x3 x4 b r) c := by
  rw [val_main_v13_apply, val_main_v12_apply, val_main_v11_apply, val_main_v10_apply, idx_v11, max'_at, score_at]
  rfl

/-- The normalizer of row `(b, r)`. -/
theorem sum_at (b : Fin 16) (r : Fin 2048) :
    val_main_v14 (F := Ideal) x0 x1 x3 x4 (ix2 b r) = rowSum (scoreRow x0 x1 x3 x4 b r) := by
  rw [val_main_v14_apply, val_main_cst_4_apply]
  simp only [idx_v14, weight_at, Ideal.ofBits_def, Ideal.ofBits_zero_f32, zero_add]
  rfl

/-- The attention array. -/
theorem attn_eq : val_main_v17 (F := Ideal) x0 x1 x3 x4 = attnArr x0 x1 x3 x4 := by
  funext i
  obtain ⟨b, r, c, rfl⟩ : ∃ (b : Fin 16) (r c : Fin 2048), i = ix3 b r c := ⟨i 0, i 1, i 2, eq_ix3 i⟩
  rw [val_main_v17_apply, val_main_v16_apply, val_main_v15_apply, idx_v16, sum_at, weight_at]
  rfl

/-- The output array. -/
theorem out_eq : val_main_v18 (F := Ideal) x0 x1 x2 x3 x4 = outArr x0 x1 x2 x3 x4 := by
  funext i
  obtain ⟨b, r, d, rfl⟩ : ∃ (b : Fin 16) (r : Fin 2048) (d : Fin 64), i = ix3 b r d := ⟨i 0, i 1, i 2, eq_ix3 i⟩
  rw [val_main_v18_apply, attn_eq]
  simp only [lidx_v18, ridx_v18]
  rfl

end Cert.ReferenceIdeal.RefValue

end
-- ==== Proof.lean ====
/-
  Masked scaled-dot-product attention, tiled over (batch, block of 256 query rows), against its whole-array
  reference, on the extended reals.

  Both programs compute, for every query row, the softmax of its masked scores `q·k / 8` (masked to -∞ where the
  one-bit mask is set, then to a large finite filler where the integer mask is zero) and that softmax row applied
  to the values. The kernel multiplies by 1/8 where the reference divides by 8, tests a widened copy of the one-bit
  mask against zero where the reference uses the bit, takes its row maximum from -∞ once where the reference joins -∞
  a second time, and contracts against transposed key blocks; on the extended reals each pair is one value, with no
  assumption on the inputs. `Proof/Spec.lean` states the common function row by row, `Proof/RefSide.lean` reads the
  reference as it, `Proof/KernelBlock.lean` one grid point's body, and `Proof/KernelArrays.lean` assembles the
  points' blocks into the two result arrays.
-/
import proofs.«148188_j71133248356959_1_alg».proof.Defs
import proofs.«148188_j71133248356959_1_alg».proof.Proof.Gen.Kernel
import proofs.«148188_j71133248356959_1_alg».proof.Proof.Gen.Kernel.Frame
import proofs.«148188_j71133248356959_1_alg».proof.Proof.Gen.KernelIdeal
import proofs.«148188_j71133248356959_1_alg».proof.Proof.Gen.KernelIdeal.Frame
import proofs.«148188_j71133248356959_1_alg».proof.Proof.Gen.KernelIdeal.Value
import proofs.«148188_j71133248356959_1_alg».proof.Proof.Gen.ReferenceIdeal
import proofs.«148188_j71133248356959_1_alg».proof.Proof.Gen.ReferenceIdeal.Run
import proofs.«148188_j71133248356959_1_alg».proof.Proof.Gen.ReferenceIdeal.Read
import proofs.«148188_j71133248356959_1_alg».proof.Proof.Gen.Pre_finite_inputs
import proofs.«148188_j71133248356959_1_alg».proof.Proof.KernelArrays
import proofs.«148188_j71133248356959_1_alg».proof.Proof.RefSide
import Idealize.ShloMosaic.Adequacy
import Idealize.ShloMosaic.Init

noncomputable section

namespace Cert.Proof

open Idealize.ShloMosaic Idealize.ShloMosaic.TcCoe Idealize.SL.Sem Cert.MaskedAttention

/-- The word-level kernel terminates without a fault and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the output array at `outArr` and the attention array at `attnArr` of arguments that agree. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.out_eq, (hagree c).1, (hagree c).2.1,
      (hagree c).2.2.1, (hagree c).2.2.2.1, (hagree c).2.2.2.2]
  · rw [Cert.ReferenceIdeal.Read.val_main_v17_eq, Cert.ReferenceIdeal.RefValue.attn_eq, (hagree c).1, (hagree c).2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
